-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64 .f32) (main_arg6 : FVec F S64x128 .f32) (main_arg7 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S100000x1 : Shape := ⟨2, ![100000, 1]⟩
abbrev S5000x1 : Shape := ⟨2, ![5000, 1]⟩
abbrev S1x128 : Shape := ⟨2, ![1, 128]⟩

abbrev nBuf : Space → Nat
  | .hbm => 105
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .f32⟩
  | .hbm, ⟨23, _⟩ => ⟨S1600000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x1, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S100000x64, .f32⟩
  | .hbm, ⟨73, _⟩ => ⟨S1x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x1, .f32⟩
  | .hbm, ⟨87, _⟩ => ⟨S1600000x64, .f32⟩
  | .hbm, ⟨88, _⟩ => ⟨S1600000x64, .f32⟩
  | .hbm, ⟨89, _⟩ => ⟨S_, .f32⟩
  | .hbm, ⟨90, _⟩ => ⟨S100000x64, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S100000x64, .f32⟩
  | .hbm, ⟨100, _⟩ => ⟨S1x64, .f32⟩
  | .hbm, ⟨101, _⟩ => ⟨S100000x1, .f32⟩
  | .hbm, ⟨102, _⟩ => ⟨S100000x64, .f32⟩
  | .hbm, ⟨103, _⟩ => ⟨S1x128, .f32⟩
  | .hbm, ⟨104, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v75) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x128 : Shape := ⟨2, ![1, 128]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S_, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S100000, .f32⟩
  | 97 => ⟨S_, .f32⟩
  | 98 => ⟨S100000, .f32⟩
  | 99 => ⟨S100000, .f32⟩
  | 100 => ⟨S100000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x64, .f32⟩
  | 1 => ⟨S1600000x1, .f32⟩
  | 2 => ⟨S1600000x64, .f32⟩
  | 3 => ⟨S1600000x64, .f32⟩
  | 4 => ⟨S_, .f32⟩
  | 5 => ⟨S100000x64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S100000x64, .f32⟩
  | 15 => ⟨S100000, .f32⟩
  | 16 => ⟨S100000x1, .f32⟩
  | 17 => ⟨S100000x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S100000x128, .f32⟩
  | 24 => ⟨S1x128, .f32⟩
  | 25 => ⟨S100000x128, .f32⟩
  | 26 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_c_20 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_21 : Ref sig .tc := ⟨.hbm, 120, rfl⟩
abbrev main_v87 : Ref sig .tc := ⟨.hbm, 121, rfl⟩
abbrev main_v88 : Ref sig .tc := ⟨.hbm, 122, rfl⟩
abbrev main_c_22 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_23 : Ref sig .tc := ⟨.hbm, 132, rfl⟩
abbrev main_v97 : Ref sig .tc := ⟨.hbm, 133, rfl⟩
abbrev main_c_24 : Ref sig .tc := ⟨.hbm, 134, rfl⟩
abbrev main_v98 : Ref sig .tc := ⟨.hbm, 135, rfl⟩
abbrev main_v99 : Ref sig .tc := ⟨.hbm, 136, rfl⟩
abbrev main_c_25 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The kernel's run with its result named. The program is five tiled regions among stretches of host
  operations; its buffers' contents at the nine boundaries are a fold from the launch memory (`Gen.W1` … `Gen.W9`:
  a host stretch applies its operations, a region replaces its arrays by what its write-backs leave). Every weakly
  fair execution terminates with each unscoped buffer at the last boundary's contents, so the result buffer ends at
  `Gen.W9` read at it and the eight arguments end as launched.
-/
import proofs.«124263_j893353198359_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the kernel program terminates, nothing faulting; the result buffer ends at the
    last boundary's contents and the arguments as launched. -/
theorem run : θ_run defs (onTc (τ := τ) (main (F := F))) ⟨m, fun _ => 0, ρ⟩ (fun r => ∀ c : Dev nD,
      r.2.mem ((c.tc : Thread nD τ).loc main_v77) = W9 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v77 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Result

end
-- ==== Proof.Prep.lean ====
/-
  What the kernel program's first stretch of host operations leaves. From the edge list alone it computes the
  endpoint arrays (each index below zero moved up by the node count), every node's degree counting its own loop, the
  inverse root degree, its square, and every edge's weight (the product of its endpoints' inverse root degrees). The
  reference computes the same quantities by the same operations, so each buffer at the first region's entry equals
  the reference's stage of the edge list; the seven float arguments are untouched.
-/
import proofs.«124263_j893353198359_1_alg».proof.Proof.Gen.KernelIdeal.Frame
import proofs.«124263_j893353198359_1_alg».proof.Proof.Gen.ReferenceIdeal.Read
import Idealize.ShloMosaic.Lib.StableHlo.Run

set_option maxRecDepth 16384

noncomputable section

namespace Cert.KernelIdeal.Prep

open Idealize.ShloMosaic Idealize.ShloMosaic.TcCoe Idealize.ShloMosaic.StableHlo
open Idealize.SL.Sem
open Cert.KernelIdeal Cert.KernelIdeal.Gen
open Cert.ReferenceIdeal.Read

variable (m : (ℓ : Loc nD τ sig) → Buf (Elt Ideal) ℓ) (ρ : Dev nD → PrngReg) (c : Dev nD)

set_option maxHeartbeats 4000000 in
/-- The edges' source nodes. -/
theorem src : W1 m ρ c (Proc.devRef .tc main_v1) = val_main_v1 (F := Ideal) (m ((c : Thread nD τ).loc main_arg1)) := by
  show StableHlo.after hostOps0 (W0 m ρ c) (Proc.devRef .tc main_v1) = _
  after_results_simp <;> rfl

set_option maxHeartbeats 4000000 in
/-- The edges' target nodes. -/
theorem dst : W1 m ρ c (Proc.devRef .tc main_v3) = val_main_v3 (F := Ideal) (m ((c : Thread nD τ).loc main_arg1)) := by
  show StableHlo.after hostOps0 (W0 m ρ c) (Proc.devRef .tc main_v3) = _
  after_results_simp <;> rfl

set_option maxHeartbeats 4000000 in
/-- Every node's squared inverse root degree. -/
theorem dsq : W1 m ρ c (Proc.devRef .tc main_v16) = val_main_v50 (F := Ideal) (m ((c : Thread nD τ).loc main_arg1)) := by
  show StableHlo.after hostOps0 (W0 m ρ c) (Proc.devRef .tc main_v16) = _
  after_results_simp <;> rfl

set_option maxHeartbeats 4000000 in
/-- Every edge's weight. -/
theorem norm : W1 m ρ c (Proc.devRef .tc main_v31) = val_main_v31 (F := Ideal) (m ((c : Thread nD τ).loc main_arg1)) := by
  show StableHlo.after hostOps0 (W0 m ρ c) (Proc.devRef .tc main_v31) = _
  after_results_simp <;> rfl

set_option maxHeartbeats 4000000 in
/-- Argument 0 is not written. -/
theorem arg0 : W1 m ρ c (Proc.devRef .tc main_arg0) = m ((c : Thread nD τ).loc main_arg0) := by
  show StableHlo.after hostOps0 (W0 m ρ c) (Proc.devRef .tc main_arg0) = _
  after_results_simp <;> rfl

set_option maxHeartbeats 4000000 in
/-- Argument 2 is not written. -/
theorem arg2 : W1 m ρ c (Proc.devRef .tc main_arg2) = m ((c : Thread nD τ).loc main_arg2) := by
  show StableHlo.after hostOps0 (W0 m ρ c) (Proc.devRef .tc main_arg2) = _
  after_results_simp <;> rfl

set_option maxHeartbeats 4000000 in
/-- Argument 3 is not written. -/
theorem arg3 : W1 m ρ c (Proc.devRef .tc main_arg3) = m ((c : Thread nD τ).loc main_arg3) := by
  show StableHlo.after hostOps0 (W0 m ρ c) (Proc.devRef .tc main_arg3) = _
  after_results_simp <;> rfl

set_option maxHeartbeats 4000000 in
/-- Argument 4 is not written. -/
theorem arg4 : W1 m ρ c (Proc.devRef .tc main_arg4) = m ((c : Thread nD τ).loc main_arg4) := by
  show StableHlo.after hostOps0 (W0 m ρ c) (Proc.devRef .tc main_arg4) = _
  after_results_simp <;> rfl

set_option maxHeartbeats 4000000 in
/-- Argument 5 is not written. -/
theorem arg5 : W1 m ρ c (Proc.devRef .tc main_arg5) = m ((c : Thread nD τ).loc main_arg5) := by
  show StableHlo.after hostOps0 (W0 m ρ c) (Proc.devRef .tc main_arg5) = _
  after_results_simp <;> rfl

set_option maxHeartbeats 4000000 in
/-- Argument 6 is not written. -/
theorem arg6 : W1 m ρ c (Proc.devRef .tc main_arg6) = m ((c : Thread nD τ).loc main_arg6) := by
  show StableHlo.after hostOps0 (W0 m ρ c) (Proc.devRef .tc main_arg6) = _
  after_results_simp <;> rfl

set_option maxHeartbeats 4000000 in
/-- Argument 7 is not written. -/
theorem arg7 : W1 m ρ c (Proc.devRef .tc main_arg7) = m ((c : Thread nD τ).loc main_arg7) := by
  show StableHlo.after hostOps0 (W0 m ρ c) (Proc.devRef .tc main_arg7) = _
  after_results_simp <;> rfl

end Cert.KernelIdeal.Prep

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Transform1.lean ====
/-
  The first linear transform, tile by tile. The region cuts the 100000 rows of `x` into 20 tiles of 5000 rows and
  multiplies each by the whole 128 × 64 weight array into a zero accumulator; tile `t` of the result is written back at
  point `t`. On the extended reals a tile's entry `(p, j)` is `∑ k < 128, x (5000 t + p, k) · w (k, j)` — the entry
  `(5000 t + p, j)` of the product of the whole arrays — and the tiles fill the rows, so the result array ends holding
  the whole product.
-/
import proofs.«124263_j893353198359_1_alg».proof.Proof.Gen.KernelIdeal.Frame
import proofs.«124263_j893353198359_1_alg».proof.Proof.LibPlainDot
import Idealize.ShloMosaic.Lib.Pipeline.Value
import Idealize.ShloMosaic.Lib.ValueIdx

set_option maxRecDepth 16384

noncomputable section

namespace Cert.KernelIdeal.Transform1

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The rows-by-columns product of the whole arrays: entry `(r, j)` is `∑ k < 128, x (r, k) · w (k, j)`. -/
def product (x : S100000x128.Idx → EReal) (w : S128x64.Idx → EReal) : S100000x64.Idx → EReal :=
  fun i => ∑ k : Fin 128, x (ix2 (i 0) k) * w (ix2 k (i 1))

/-- An array of the given shape, read as extended reals. -/
abbrev rd (S : Shape) (f : S.Idx → EReal) : S.Idx → EReal := f

theorem zeros : (![0, 0] : Fin 2 → Nat) = fun _ => 0 := funext fun a => by fin_cases a <;> rfl

/-- One tile of 5000 rows: the narrowing to the matrix unit's format is the identity on the extended reals, and the
    matrix product into a zero accumulator is the plain sum over the 128 shared coordinates. -/
theorem tile_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.LibPlainDot.matmul_zero_apply dot_S5000x128_S128x64_S5000x64_1_0_0_1_n_n ⟨rfl, rfl, rfl, rfl, rfl, rfl⟩ none _ _ p q

/-- Over the 20 grid points: the rows' tile and the result's tile move together, the weights' block stays put,
    and no tile has a column offset. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Each of the 20 row tiles is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is tile `t` of the whole product of the arrays the region finds. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x64) zeros]
  obtain ⟨e0, e1, e2, e3, e4⟩ := idx_facts t
  funext j
  obtain ⟨p, q, rfl⟩ : ∃ (p : Fin 5000) (q : Fin 64), j = ix2 p q := ⟨j 0, j 1, eq_ix2 j⟩
  refine (tile_apply (iblk0 V c 0 t) (iblk0 V c 1 t) p q).trans ?_
  show _ = ∑ k : Fin 128, rd S100000x128 (V c main_arg0) (ix2 ((((cfg0.win 2).blk t).view.emb (ix2 p q)) 0) k) * rd S128x64 (V c main_arg2) (ix2 k ((((cfg0.win 2).blk t).view.emb (ix2 p q)) 1))
  refine Finset.sum_congr rfl fun k _ => ?_
  show rd S100000x128 (V c main_arg0) (((cfg0.win 0).blk t).view.emb (ix2 p k)) * rd S128x64 (V c main_arg2) (((cfg0.win 1).blk t).view.emb (ix2 k q)) = _
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]
  rfl

/-- An index of the result array is in point `t`'s tile iff each coordinate is in the tile's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The 20 tiles of 5000 rows fill the 100000 rows: row `r` is in tile `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the result array holds the whole product of the arrays the region found. -/
theorem final (c : Dev nD) : (dat0 V c).arrAt 2 cfg0.N = product (V c main_arg0) (V c main_arg2) :=
  (dat0 V c).arrAt_eq_of_cover 2 _ (fun t _ => flushed_eq V c t) cover

end Cert.KernelIdeal.Transform1

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Combine1.lean ====
/-
  The first layer's combination, tile by tile. The region cuts the 100000 rows into 20 tiles of 5000 rows; at each
  point it adds to the aggregated messages the node's own transformed features scaled by the node's squared inverse
  root degree (kept as a column `[100000, 1]`), adds the bias (kept as a row `[1, 64]`), and takes the larger of the sum
  and zero. Every entry of the result depends on the inputs' entries of the same row and column only, so tile `t` of
  the result is tile `t` of the combination of the whole arrays, and the tiles fill the rows.
-/
import proofs.«124263_j893353198359_1_alg».proof.Proof.Gen.KernelIdeal.Frame
import proofs.«124263_j893353198359_1_alg».proof.Proof.LibColumn
import Idealize.ShloMosaic.Lib.Pipeline.Value
import Idealize.ShloMosaic.Lib.ValueIdx

set_option maxRecDepth 16384

noncomputable section

namespace Cert.KernelIdeal.Combine1

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The layer's combination of whole arrays: entry `(r, j)` is the larger of zero and `(agg (r, j) + h (r, j) · d (r, 0)) + b (0, j)`. -/
def combined (agg h : S100000x64.Idx → EReal) (d : S100000x1.Idx → EReal) (b : S1x64.Idx → EReal) : S100000x64.Idx → EReal :=
  fun i => max ((agg i + h i * d (ix2 (i 0) (0 : Fin 1))) + b (ix2 (0 : Fin 1) (i 1))) (FloatOps.ofBits (F := Ideal) .f32 0x00000000#32)

/-- An array of the given shape, read as extended reals. -/
abbrev rd (S : Shape) (f : S.Idx → EReal) : S.Idx → EReal := f

theorem zeros : (![0, 0] : Fin 2 → Nat) = fun _ => 0 := funext fun a => by fin_cases a <;> rfl

/-- One tile of 5000 rows at an index: the casts to the same shape are the identity, the scale column reaches every
    entry of its row and the bias row every entry of its column. -/
theorem tile_apply (x0 x1 : Vec Ideal S5000x64 .f32) (x2 : Vec Ideal S5000x1 .f32) (x3 : Vec Ideal S1x64 .f32) (p : Fin 5000) (q : Fin 64) :
    k1_pay1 (F := Ideal) x0 x1 x2 x3 (ix2 p q)
      = max ((x0 (ix2 p q) + x1 (ix2 p q) * x2 (ix2 p (0 : Fin 1))) + x3 (ix2 (0 : Fin 1) q)) (FloatOps.ofBits (F := Ideal) .f32 0x00000000#32) := by
  unfold k1_pay1
  simp only [shapeCast_self]
  show max ((x0 (ix2 p q) + x1 (ix2 p q) * broadcastTo S5000x64 x2 broadcasts_S5000x1_S5000x64 (ix2 p q)) + broadcastTo S5000x64 x3 broadcasts_S1x64_S5000x64 (ix2 p q)) _ = _
  rw [Cert.LibColumn.broadcastTo_a1_ab_apply, broadcastTo_1b_ab_apply]
  rfl

/-- Over the 20 grid points: the three row-tiled inputs and the result move together, the bias row stays put, and
    no tile has a column offset. -/
theorem idx_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = win1_4.index t (0 : Fin 2)
    ∧ win1_2.index t (1 : Fin 2) = 0 ∧ win1_3.index t (0 : Fin 2) = 0 ∧ win1_3.index t (1 : Fin 2) = 0
    ∧ win1_4.index t (1 : Fin 2) = 0 :=
  (by decide +kernel : ∀ t : Fin grid1.N, _)

/-- Each of the 20 row tiles is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- What point `t` writes back is tile `t` of the combination of the whole arrays the region finds. -/
theorem flushed_eq (c : Dev nD) (t : Fin cfg1.N) :
    (dat1 V c).flushed 4 t = ((cfg1.win 4).blk t).view.read (Elt Ideal) (combined (V c main_v50) (V c main_v32) (V c main_v52) (V c main_v51)) := by
  show (cfg1.win 4).cut (grid1.coords t) ((dat1 V c).after 4 t) = _
  rw [after1_4]
  unfold out1_4
  rw [View.canon_unit_zero zeros]
  simp only [View.ld_unit_zero (S := S5000x64) zeros, View.ld_unit_zero (S := S5000x1) zeros, View.ld_unit_zero (S := S1x64) zeros]
  obtain ⟨e0, e1, e2, e3, e4, e5, e6, e7, e8⟩ := idx_facts t
  funext j
  obtain ⟨p, q, rfl⟩ : ∃ (p : Fin 5000) (q : Fin 64), j = ix2 p q := ⟨j 0, j 1, eq_ix2 j⟩
  refine (tile_apply (iblk1 V c 0 t) (iblk1 V c 1 t) (iblk1 V c 2 t) (iblk1 V c 3 t) p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  show max ((rd S100000x64 (V c main_v50) (((cfg1.win 0).blk t).view.emb (ix2 p q)) + rd S100000x64 (V c main_v32) (((cfg1.win 1).blk t).view.emb (ix2 p q)) * rd S100000x1 (V c main_v52) (((cfg1.win 2).blk t).view.emb (ix2 p (0 : Fin 1)))) + rd S1x64 (V c main_v51) (((cfg1.win 3).blk t).view.emb (ix2 (0 : Fin 1) q))) _ = _
  rw [h0, h1, h2, h3]
  rfl

/-- An index of the result array is in point `t`'s tile iff each coordinate is in the tile's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v53).slice (win1_4.rect t)).set ↔ _
  rw [View.set_slice_whole, Rect.mem_set_unit]
  exact Iff.rfl

/-- The 20 tiles of 5000 rows fill the 100000 rows: row `r` is in tile `r / 5000`. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the region the result array holds the combination of the whole arrays the region found. -/
theorem final (c : Dev nD) : (dat1 V c).arrAt 4 cfg1.N = combined (V c main_v50) (V c main_v32) (V c main_v52) (V c main_v51) :=
  (dat1 V c).arrAt_eq_of_cover 4 _ (fun t _ => flushed_eq V c t) cover

end Cert.KernelIdeal.Combine1

end
-- ==== Proof.Layer1.lean ====
/-
  The first layer, boundary by boundary. After the first region its result array is the product `x · W1` of the whole
  arrays — on the extended reals the same plain sums as the reference's `dot_general`. The next stretch of host operations
  gathers that product's rows at the edges' sources, scales each by its edge's weight and adds them up at the edges'
  targets: the reference's aggregation, operation for operation. The second region then forms, entry by entry,
  `max ((agg + h · d²) + b, 0)`, reading the squared inverse root degree through a column and the bias through a row
  where the reference broadcasts them: the same entries.
-/
import proofs.«124263_j893353198359_1_alg».proof.Proof.Gen.KernelIdeal.Frame
import proofs.«124263_j893353198359_1_alg».proof.Proof.Gen.ReferenceIdeal.Read
import proofs.«124263_j893353198359_1_alg».proof.Proof.Prep
import proofs.«124263_j893353198359_1_alg».proof.Proof.Transform1
import proofs.«124263_j893353198359_1_alg».proof.Proof.Combine1
import proofs.«124263_j893353198359_1_alg».proof.Proof.LibPlainDot
import proofs.«124263_j893353198359_1_alg».proof.Proof.LibColumn
import Idealize.ShloMosaic.Lib.StableHlo.Run
import Idealize.ShloMosaic.Lib.ValueLayout

set_option maxRecDepth 16384

noncomputable section

namespace Cert.KernelIdeal.Layer1

open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- The product of whole arrays is the reference's `dot_general`: both are `∑ k < 128, x (r, k) · w (k, j)`. -/
theorem product_eq (X : S100000x128.Idx → EReal) (W : S128x64.Idx → EReal) :
    Transform1.product X W = val_main_v4 (F := Ideal) X W := by
  funext i
  obtain ⟨p, q, rfl⟩ : ∃ (p : Fin 100000) (q : Fin 64), i = ix2 p q := ⟨i 0, i 1, eq_ix2 i⟩
  unfold val_main_v4
  exact (Cert.LibPlainDot.dotGeneral_apply Cert.ReferenceIdeal.dot_S100000x128_S128x64_S100000x64_1_0_0_1_n_n ⟨rfl, rfl, rfl, rfl, rfl, rfl⟩ none _ X W p q).symm

/-! ## After the first region -/

/-- The first region's result: the transformed features `x · W1`. -/
theorem h0 : W2 m ρ c (Proc.devRef .tc main_v32) = val_main_v4 (F := Ideal) (m ((c : Thread nD τ).loc main_arg0)) (m ((c : Thread nD τ).loc main_arg2)) := by
  refine (W2_arr m ρ c 2).trans ?_
  rw [Transform1.final (V1 m ρ) c]
  show Transform1.product (W1 m ρ c (Proc.devRef .tc main_arg0)) (W1 m ρ c (Proc.devRef .tc main_arg2)) = _
  rw [Prep.arg0, Prep.arg2]
  exact product_eq _ _

theorem W2_src : W2 m ρ c (Proc.devRef .tc main_v1) = val_main_v1 (F := Ideal) (m ((c : Thread nD τ).loc main_arg1)) :=
  (W2_of_ne m ρ c main_v1 (by decide)).trans (Prep.src m ρ c)

theorem W2_dst : W2 m ρ c (Proc.devRef .tc main_v3) = val_main_v3 (F := Ideal) (m ((c : Thread nD τ).loc main_arg1)) :=
  (W2_of_ne m ρ c main_v3 (by decide)).trans (Prep.dst m ρ c)

theorem W2_dsq : W2 m ρ c (Proc.devRef .tc main_v16) = val_main_v50 (F := Ideal) (m ((c : Thread nD τ).loc main_arg1)) :=
  (W2_of_ne m ρ c main_v16 (by decide)).trans (Prep.dsq m ρ c)

theorem W2_norm : W2 m ρ c (Proc.devRef .tc main_v31) = val_main_v31 (F := Ideal) (m ((c : Thread nD τ).loc main_arg1)) :=
  (W2_of_ne m ρ c main_v31 (by decide)).trans (Prep.norm m ρ c)

theorem W2_arg3 : W2 m ρ c (Proc.devRef .tc main_arg3) = (m ((c : Thread nD τ).loc main_arg3)) :=
  (W2_of_ne m ρ c main_arg3 (by decide)).trans (Prep.arg3 m ρ c)

theorem W2_arg4 : W2 m ρ c (Proc.devRef .tc main_arg4) = (m ((c : Thread nD τ).loc main_arg4)) :=
  (W2_of_ne m ρ c main_arg4 (by decide)).trans (Prep.arg4 m ρ c)

theorem W2_arg5 : W2 m ρ c (Proc.devRef .tc main_arg5) = (m ((c : Thread nD τ).loc main_arg5)) :=
  (W2_of_ne m ρ c main_arg5 (by decide)).trans (Prep.arg5 m ρ c)

theorem W2_arg6 : W2 m ρ c (Proc.devRef .tc main_arg6) = (m ((c : Thread nD τ).loc main_arg6)) :=
  (W2_of_ne m ρ c main_arg6 (by decide)).trans (Prep.arg6 m ρ c)

theorem W2_arg7 : W2 m ρ c (Proc.devRef .tc main_arg7) = (m ((c : Thread nD τ).loc main_arg7)) :=
  (W2_of_ne m ρ c main_arg7 (by decide)).trans (Prep.arg7 m ρ c)

/-! ## After the stretch of host operations between the first two regions -/

set_option maxHeartbeats 4000000 in
/-- The aggregated messages: the rows of `x · W1` at the edges' sources, each scaled by its edge's weight, added up at
    the edges' targets. -/
theorem agg : W3 m ρ c (Proc.devRef .tc main_v50) = val_main_v49 (F := Ideal) (m ((c : Thread nD τ).loc main_arg0)) (m ((c : Thread nD τ).loc main_arg1)) (m ((c : Thread nD τ).loc main_arg2)) := by
  show StableHlo.after hostOps1 (W2 m ρ c) (Proc.devRef .tc main_v50) = _
  after_results_simp
  rw [h0 m ρ c, W2_src m ρ c, W2_dst m ρ c, W2_norm m ρ c]
  rfl

set_option maxHeartbeats 4000000 in
/-- The squared inverse root degree laid out as a column. -/
theorem dcol : W3 m ρ c (Proc.devRef .tc main_v52) = shapeCast S100000x1 (val_main_v50 (F := Ideal) (m ((c : Thread nD τ).loc main_arg1))) shapeCasts_S100000_S100000x1 := by
  show StableHlo.after hostOps1 (W2 m ρ c) (Proc.devRef .tc main_v52) = _
  after_results_simp
  rw [W2_dsq m ρ c]
  rfl

set_option maxHeartbeats 4000000 in
/-- The first bias laid out as a row. -/
theorem brow : W3 m ρ c (Proc.devRef .tc main_v51) = shapeCast S1x64 (m ((c : Thread nD τ).loc main_arg3)) shapeCasts_S64_S1x64 := by
  show StableHlo.after hostOps1 (W2 m ρ c) (Proc.devRef .tc main_v51) = _
  after_results_simp
  rw [W2_arg3 m ρ c]
  rfl

set_option maxHeartbeats 4000000 in
theorem W3_h0 : W3 m ρ c (Proc.devRef .tc main_v32) = val_main_v4 (F := Ideal) (m ((c : Thread nD τ).loc main_arg0)) (m ((c : Thread nD τ).loc main_arg2)) := by
  show StableHlo.after hostOps1 (W2 m ρ c) (Proc.devRef .tc main_v32) = _
  after_results_simp
  exact h0 m ρ c

set_option maxHeartbeats 4000000 in
theorem W3_src : W3 m ρ c (Proc.devRef .tc main_v1) = val_main_v1 (F := Ideal) (m ((c : Thread nD τ).loc main_arg1)) := by
  show StableHlo.after hostOps1 (W2 m ρ c) (Proc.devRef .tc main_v1) = _
  after_results_simp
  exact W2_src m ρ c

set_option maxHeartbeats 4000000 in
theorem W3_dst : W3 m ρ c (Proc.devRef .tc main_v3) = val_main_v3 (F := Ideal) (m ((c : Thread nD τ).loc main_arg1)) := by
  show StableHlo.after hostOps1 (W2 m ρ c) (Proc.devRef .tc main_v3) = _
  after_results_simp
  exact W2_dst m ρ c

set_option maxHeartbeats 4000000 in
theorem W3_dsq : W3 m ρ c (Proc.devRef .tc main_v16) = val_main_v50 (F := Ideal) (m ((c : Thread nD τ).loc main_arg1)) := by
  show StableHlo.after hostOps1 (W2 m ρ c) (Proc.devRef .tc main_v16) = _
  after_results_simp
  exact W2_dsq m ρ c

set_option maxHeartbeats 4000000 in
theorem W3_norm : W3 m ρ c (Proc.devRef .tc main_v31) = val_main_v31 (F := Ideal) (m ((c : Thread nD τ).loc main_arg1)) := by
  show StableHlo.after hostOps1 (W2 m ρ c) (Proc.devRef .tc main_v31) = _
  after_results_simp
  exact W2_norm m ρ c

set_option maxHeartbeats 4000000 in
theorem W3_arg4 : W3 m ρ c (Proc.devRef .tc main_arg4) = (m ((c : Thread nD τ).loc main_arg4)) := by
  show StableHlo.after hostOps1 (W2 m ρ c) (Proc.devRef .tc main_arg4) = _
  after_results_simp
  exact W2_arg4 m ρ c

set_option maxHeartbeats 4000000 in
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c

set_option maxHeartbeats 4000000 in
theorem W3_arg6 : W3 m ρ c (Proc.devRef .tc main_arg6) = (m ((c : Thread nD τ).loc main_arg6)) := by
  show StableHlo.after hostOps1 (W2 m ρ c) (Proc.devRef .tc main_arg6) = _
  after_results_simp
  exact W2_arg6 m ρ c

set_option maxHeartbeats 4000000 in
theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c

/-! ## After the second region -/

/-- Entry by entry, the region's combination read through a column and a row is the reference's chain of
    broadcasts, products, sums and the maximum with zero. -/
theorem combined_eq (X : S100000x128.Idx → EReal) (E : (⟨S2x1600000, .i32⟩ : BufTy).Contents (Elt Ideal)) (W : S128x64.Idx → EReal) (B : S64.Idx → EReal) :
    Combine1.combined (val_main_v49 (F := Ideal) X E W) (val_main_v4 (F := Ideal) X W)
        (shapeCast S100000x1 (val_main_v50 (F := Ideal) E) shapeCasts_S100000_S100000x1) (shapeCast S1x64 B shapeCasts_S64_S1x64)
      = val_main_v58 (F := Ideal) X E W B := by
  funext i
  obtain ⟨p, q, rfl⟩ : ∃ (p : Fin 100000) (q : Fin 64), i = ix2 p q := ⟨i 0, i 1, eq_ix2 i⟩
  rw [val_main_v58_apply, val_main_v57_apply, val_main_v54_apply, val_main_v53_apply, val_main_v52_apply, val_main_v51_apply,
    val_main_v56_apply, val_main_v55_apply, val_main_call0_v0_apply, val_main_call0_cst_apply]
  have e1 : Cert.ReferenceIdeal.Read.idx_main_v51 (Cert.ReferenceIdeal.Read.idx_main_v52 (ix2 p q)) = ix1 p :=
    funext fun a => Fin.ext (by match a with | ⟨0, _⟩ => rfl)
  have e2 : Cert.ReferenceIdeal.Read.idx_main_v55 (Cert.ReferenceIdeal.Read.idx_main_v56 (ix2 p q)) = ix1 q :=
    funext fun a => Fin.ext (by match a with | ⟨0, _⟩ => rfl)
  rw [e1, e2]
  unfold Combine1.combined
  rw [Cert.LibColumn.shapeCast_a_a1_apply, shapeCast_a_1a_apply]
  rfl

/-- The second region's result: the first layer's output. -/
theorem h1 : W4 m ρ c (Proc.devRef .tc main_v53) = val_main_v58 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  rw [Combine1.final (V3 m ρ) c]
  show Combine1.combined (W3 m ρ c (Proc.devRef .tc main_v50)) (W3 m ρ c (Proc.devRef .tc main_v32))
    (W3 m ρ c (Proc.devRef .tc main_v52)) (W3 m ρ c (Proc.devRef .tc main_v51)) = _
  rw [agg m ρ c, W3_h0 m ρ c, dcol m ρ c, brow m ρ c]
  exact combined_eq _ _ _ _

theorem W4_src : W4 m ρ c (Proc.devRef .tc main_v1) = val_main_v1 (F := Ideal) (m ((c : Thread nD τ).loc main_arg1)) :=
  (W4_of_ne m ρ c main_v1 (by decide)).trans (W3_src m ρ c)

theorem W4_dst : W4 m ρ c (Proc.devRef .tc main_v3) = val_main_v3 (F := Ideal) (m ((c : Thread nD τ).loc main_arg1)) :=
  (W4_of_ne m ρ c main_v3 (by decide)).trans (W3_dst m ρ c)

theorem W4_dsq : W4 m ρ c (Proc.devRef .tc main_v16) = val_main_v50 (F := Ideal) (m ((c : Thread nD τ).loc main_arg1)) :=
  (W4_of_ne m ρ c main_v16 (by decide)).trans (W3_dsq m ρ c)

theorem W4_norm : W4 m ρ c (Proc.devRef .tc main_v31) = val_main_v31 (F := Ideal) (m ((c : Thread nD τ).loc main_arg1)) :=
  (W4_of_ne m ρ c main_v31 (by decide)).trans (W3_norm m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

end Cert.KernelIdeal.Layer1

end
-- ==== Proof.Transform2.lean ====
/-
  The second linear transform, tile by tile. The region cuts the 100000 rows of the first layer's output into 20 tiles
  of 5000 rows and multiplies each by the whole 64 × 64 weight array into a zero accumulator; tile `t` of the result is
  written back at point `t`. On the extended reals a tile's entry `(p, j)` is `∑ k < 64, h (5000 t + p, k) · w (k, j)`
  — the entry `(5000 t + p, j)` of the product of the whole arrays — and the tiles fill the rows, so the result array
  ends holding the whole product.
-/
import proofs.«124263_j893353198359_1_alg».proof.Proof.Gen.KernelIdeal.Frame
import proofs.«124263_j893353198359_1_alg».proof.Proof.LibPlainDot
import Idealize.ShloMosaic.Lib.Pipeline.Value
import Idealize.ShloMosaic.Lib.ValueIdx

set_option maxRecDepth 16384

noncomputable section

namespace Cert.KernelIdeal.Transform2

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The rows-by-columns product of the whole arrays: entry `(r, j)` is `∑ k < 64, x (r, k) · w (k, j)`. -/
def product (x : S100000x64.Idx → EReal) (w : S64x64.Idx → EReal) : S100000x64.Idx → EReal :=
  fun i => ∑ k : Fin 64, x (ix2 (i 0) k) * w (ix2 k (i 1))

/-- An array of the given shape, read as extended reals. -/
abbrev rd (S : Shape) (f : S.Idx → EReal) : S.Idx → EReal := f

theorem zeros : (![0, 0] : Fin 2 → Nat) = fun _ => 0 := funext fun a => by fin_cases a <;> rfl

/-- One tile of 5000 rows: the narrowing to the matrix unit's format is the identity on the extended reals, and the
    matrix product into a zero accumulator is the plain sum over the 64 shared coordinates. -/
theorem tile_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  simp only [shapeCast_self]
  exact Cert.LibPlainDot.matmul_zero_apply dot_S5000x64_S64x64_S5000x64_1_0_0_1_n_n ⟨rfl, rfl, rfl, rfl, rfl, rfl⟩ none _ _ p q

/-- Over the 20 grid points: the rows' tile and the result's tile move together, the other blocks stay put,
    and no tile has a column offset. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Each of the 20 row tiles is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point `t` writes back is tile `t` of the whole product of the arrays the region finds. -/
theorem flushed_eq (c : Dev nD) (t : Fin cfg2.N) :
    (dat2 V c).flushed 2 t = ((cfg2.win 2).blk t).view.read (Elt Ideal) (product (V c main_v53) (V c main_arg4)) := by
  show (cfg2.win 2).cut (grid2.coords t) ((dat2 V c).after 2 t) = _
  rw [after2_2]
  unfold out2_2
  rw [View.canon_unit_zero zeros]
  simp only [View.ld_unit_zero (S := S5000x64) zeros, View.ld_unit_zero (S := S64x64) zeros]
  obtain ⟨e0, e1, e2, e3, e4⟩ := idx_facts t
  funext j
  obtain ⟨p, q, rfl⟩ : ∃ (p : Fin 5000) (q : Fin 64), j = ix2 p q := ⟨j 0, j 1, eq_ix2 j⟩
  refine (tile_apply (iblk2 V c 0 t) (iblk2 V c 1 t) p q).trans ?_
  show _ = ∑ k : Fin 64, rd S100000x64 (V c main_v53) (ix2 ((((cfg2.win 2).blk t).view.emb (ix2 p q)) 0) k) * rd S64x64 (V c main_arg4) (ix2 k ((((cfg2.win 2).blk t).view.emb (ix2 p q)) 1))
  refine Finset.sum_congr rfl fun k _ => ?_
  show rd S100000x64 (V c main_v53) (((cfg2.win 0).blk t).view.emb (ix2 p k)) * rd S64x64 (V c main_arg4) (((cfg2.win 1).blk t).view.emb (ix2 k q)) = _
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [h0, h1]
  rfl

/-- An index of the result array is in point `t`'s tile iff each coordinate is in the tile's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v54).slice (win2_2.rect t)).set ↔ _
  rw [View.set_slice_whole, Rect.mem_set_unit]
  exact Iff.rfl

/-- The 20 tiles of 5000 rows fill the 100000 rows: row `r` is in tile `r / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the result array holds the whole product of the arrays the region found. -/
theorem final (c : Dev nD) : (dat2 V c).arrAt 2 cfg2.N = product (V c main_v53) (V c main_arg4) :=
  (dat2 V c).arrAt_eq_of_cover 2 _ (fun t _ => flushed_eq V c t) cover

end Cert.KernelIdeal.Transform2

end
-- ==== Proof.Combine2.lean ====
/-
  The second layer's combination, tile by tile. The region cuts the 100000 rows into 20 tiles of 5000 rows; at each
  point it adds to the aggregated messages the node's own transformed features scaled by the node's squared inverse
  root degree (kept as a column `[100000, 1]`) and adds the bias (kept as a row `[1, 64]`). Every entry of the result
  depends on the inputs' entries of the same row and column only, so tile `t` of the result is tile `t` of the
  combination of the whole arrays, and the tiles fill the rows.
-/
import proofs.«124263_j893353198359_1_alg».proof.Proof.Gen.KernelIdeal.Frame
import proofs.«124263_j893353198359_1_alg».proof.Proof.LibColumn
import Idealize.ShloMosaic.Lib.Pipeline.Value
import Idealize.ShloMosaic.Lib.ValueIdx

set_option maxRecDepth 16384

noncomputable section

namespace Cert.KernelIdeal.Combine2

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The layer's combination of whole arrays: entry `(r, j)` is `(agg (r, j) + h (r, j) · d (r, 0)) + b (0, j)`. -/
def combined (agg h : S100000x64.Idx → EReal) (d : S100000x1.Idx → EReal) (b : S1x64.Idx → EReal) : S100000x64.Idx → EReal :=
  fun i => (agg i + h i * d (ix2 (i 0) (0 : Fin 1))) + b (ix2 (0 : Fin 1) (i 1))

/-- An array of the given shape, read as extended reals. -/
abbrev rd (S : Shape) (f : S.Idx → EReal) : S.Idx → EReal := f

theorem zeros : (![0, 0] : Fin 2 → Nat) = fun _ => 0 := funext fun a => by fin_cases a <;> rfl

/-- One tile of 5000 rows at an index: the casts to the same shape are the identity, the scale column reaches every
    entry of its row and the bias row every entry of its column. -/
theorem tile_apply (x0 x1 : Vec Ideal S5000x64 .f32) (x2 : Vec Ideal S5000x1 .f32) (x3 : Vec Ideal S1x64 .f32) (p : Fin 5000) (q : Fin 64) :
    k3_pay1 (F := Ideal) x0 x1 x2 x3 (ix2 p q)
      = (x0 (ix2 p q) + x1 (ix2 p q) * x2 (ix2 p (0 : Fin 1))) + x3 (ix2 (0 : Fin 1) q) := by
  unfold k3_pay1
  simp only [shapeCast_self]
  show (x0 (ix2 p q) + x1 (ix2 p q) * broadcastTo S5000x64 x2 broadcasts_S5000x1_S5000x64 (ix2 p q)) + broadcastTo S5000x64 x3 broadcasts_S1x64_S5000x64 (ix2 p q) = _
  rw [Cert.LibColumn.broadcastTo_a1_ab_apply, broadcastTo_1b_ab_apply]

/-- Over the 20 grid points: the three row-tiled inputs and the result move together, the bias row stays put, and
    no tile has a column offset. -/
theorem idx_facts : ∀ t : Fin cfg3.N, win3_0.index t (0 : Fin 2) = win3_4.index t (0 : Fin 2)
    ∧ win3_0.index t (1 : Fin 2) = 0 ∧ win3_1.index t (0 : Fin 2) = win3_4.index t (0 : Fin 2)
    ∧ win3_1.index t (1 : Fin 2) = 0 ∧ win3_2.index t (0 : Fin 2) = win3_4.index t (0 : Fin 2)
    ∧ win3_2.index t (1 : Fin 2) = 0 ∧ win3_3.index t (0 : Fin 2) = 0 ∧ win3_3.index t (1 : Fin 2) = 0
    ∧ win3_4.index t (1 : Fin 2) = 0 :=
  (by decide +kernel : ∀ t : Fin grid3.N, _)

/-- Each of the 20 row tiles is some point's. -/
theorem idx_onto : ∀ q0 : Fin 20, ∃ t : Fin cfg3.N, win3_4.index t = ![q0.val, 0] :=
  (by decide +kernel : ∀ q0 : Fin 20, ∃ t : Fin grid3.N, win3_4.index t = ![q0.val, 0])

/-- What point `t` writes back is tile `t` of the combination of the whole arrays the region finds. -/
theorem flushed_eq (c : Dev nD) (t : Fin cfg3.N) :
    (dat3 V c).flushed 4 t = ((cfg3.win 4).blk t).view.read (Elt Ideal) (combined (V c main_v72) (V c main_v54) (V c main_v74) (V c main_v73)) := by
  show (cfg3.win 4).cut (grid3.coords t) ((dat3 V c).after 4 t) = _
  rw [after3_4]
  unfold out3_4
  rw [View.canon_unit_zero zeros]
  simp only [View.ld_unit_zero (S := S5000x64) zeros, View.ld_unit_zero (S := S5000x1) zeros, View.ld_unit_zero (S := S1x64) zeros]
  obtain ⟨e0, e1, e2, e3, e4, e5, e6, e7, e8⟩ := idx_facts t
  funext j
  obtain ⟨p, q, rfl⟩ : ∃ (p : Fin 5000) (q : Fin 64), j = ix2 p q := ⟨j 0, j 1, eq_ix2 j⟩
  refine (tile_apply (iblk3 V c 0 t) (iblk3 V c 1 t) (iblk3 V c 2 t) (iblk3 V c 3 t) p q).trans ?_
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = win3_4.index t (1 : Fin 2) * 64 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 64 + 1 * q.val = win3_4.index t (1 : Fin 2) * 64 + 1 * q.val; omega
  have h2 : ((cfg3.win 2).blk t).view.emb (ix2 p (0 : Fin 1)) = ix2 ((((cfg3.win 4).blk t).view.emb (ix2 p q)) 0) (0 : Fin 1) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have h3 : ((cfg3.win 3).blk t).view.emb (ix2 (0 : Fin 1) q) = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  show (rd S100000x64 (V c main_v72) (((cfg3.win 0).blk t).view.emb (ix2 p q)) + rd S100000x64 (V c main_v54) (((cfg3.win 1).blk t).view.emb (ix2 p q)) * rd S100000x1 (V c main_v74) (((cfg3.win 2).blk t).view.emb (ix2 p (0 : Fin 1)))) + rd S1x64 (V c main_v73) (((cfg3.win 3).blk t).view.emb (ix2 (0 : Fin 1) q)) = _
  rw [h0, h1, h2, h3]
  rfl

/-- An index of the result array is in point `t`'s tile iff each coordinate is in the tile's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v75).slice (win3_4.rect t)).set ↔ _
  rw [View.set_slice_whole, Rect.mem_set_unit]
  exact Iff.rfl

/-- The 20 tiles of 5000 rows fill the 100000 rows: row `r` is in tile `r / 5000`. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- After the region the result array holds the combination of the whole arrays the region found. -/
theorem final (c : Dev nD) : (dat3 V c).arrAt 4 cfg3.N = combined (V c main_v72) (V c main_v54) (V c main_v74) (V c main_v73) :=
  (dat3 V c).arrAt_eq_of_cover 4 _ (fun t _ => flushed_eq V c t) cover

end Cert.KernelIdeal.Combine2

end
-- ==== Proof.Layer2.lean ====
/-
  The second layer, boundary by boundary. The third region multiplies the first layer's output by `W2` tile by tile:
  the reference's second `dot_general`. The next stretch of host operations aggregates that product over the edges with
  the SAME edge weights the first stretch computed; the reference computes degrees, inverse roots and edge weights a
  second time by the same operations of the same edge list, so its second set equals its first. The fourth region
  forms `(agg + h · d²) + b` entry by entry, as the reference does.
-/
import proofs.«124263_j893353198359_1_alg».proof.Proof.Gen.KernelIdeal.Frame
import proofs.«124263_j893353198359_1_alg».proof.Proof.Gen.ReferenceIdeal.Read
import proofs.«124263_j893353198359_1_alg».proof.Proof.Layer1
import proofs.«124263_j893353198359_1_alg».proof.Proof.Transform2
import proofs.«124263_j893353198359_1_alg».proof.Proof.Combine2
import proofs.«124263_j893353198359_1_alg».proof.Proof.LibPlainDot
import proofs.«124263_j893353198359_1_alg».proof.Proof.LibColumn
import Idealize.ShloMosaic.Lib.StableHlo.Run
import Idealize.ShloMosaic.Lib.ValueLayout

set_option maxRecDepth 16384

noncomputable section

namespace Cert.KernelIdeal.Layer2

open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- The product of whole arrays is the reference's `dot_general`: both are `∑ k < 64, h (r, k) · w (k, j)`. -/
theorem product_eq (H : FVec Ideal S100000x64 .f32) (W : FVec Ideal S64x64 .f32) :
    Transform2.product H W = Host.dotGeneral (F := Ideal) Cert.ReferenceIdeal.dot_S100000x64_S64x64_S100000x64_1_0_0_1_n_n none H W := by
  funext i
  obtain ⟨p, q, rfl⟩ : ∃ (p : Fin 100000) (q : Fin 64), i = ix2 p q := ⟨i 0, i 1, eq_ix2 i⟩
  exact (Cert.LibPlainDot.dotGeneral_apply Cert.ReferenceIdeal.dot_S100000x64_S64x64_S100000x64_1_0_0_1_n_n ⟨rfl, rfl, rfl, rfl, rfl, rfl⟩ none _ H W p q).symm

/-- The reference's second computation of the edge weights is its first: the same operations of the same edge list. -/
theorem norm_again (E : (⟨S2x1600000, .i32⟩ : BufTy).Contents (Elt Ideal)) : val_main_v86 (F := Ideal) E = val_main_v31 (F := Ideal) E := rfl

/-- The reference's second computation of the squared inverse root degree is its first. -/
theorem dsq_again (E : (⟨S2x1600000, .i32⟩ : BufTy).Contents (Elt Ideal)) : val_main_v105 (F := Ideal) E = val_main_v50 (F := Ideal) E := rfl

/-! ## After the third region -/

/-- The third region's result: the transformed features `h · W2`. -/
theorem h2 : W5 m ρ c (Proc.devRef .tc main_v54) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Transform2.final (V4 m ρ) c]
  show Transform2.product (W4 m ρ c (Proc.devRef .tc main_v53)) (W4 m ρ c (Proc.devRef .tc main_arg4)) = _
  rw [Layer1.h1 m ρ c, Layer1.W4_arg4 m ρ c]
  exact product_eq _ _

theorem W5_src : W5 m ρ c (Proc.devRef .tc main_v1) = val_main_v1 (F := Ideal) (m ((c : Thread nD τ).loc main_arg1)) :=
  (W5_of_ne m ρ c main_v1 (by decide)).trans (Layer1.W4_src m ρ c)

theorem W5_dst : W5 m ρ c (Proc.devRef .tc main_v3) = val_main_v3 (F := Ideal) (m ((c : Thread nD τ).loc main_arg1)) :=
  (W5_of_ne m ρ c main_v3 (by decide)).trans (Layer1.W4_dst m ρ c)

theorem W5_dsq : W5 m ρ c (Proc.devRef .tc main_v16) = val_main_v50 (F := Ideal) (m ((c : Thread nD τ).loc main_arg1)) :=
  (W5_of_ne m ρ c main_v16 (by decide)).trans (Layer1.W4_dsq m ρ c)

theorem W5_norm : W5 m ρ c (Proc.devRef .tc main_v31) = val_main_v31 (F := Ideal) (m ((c : Thread nD τ).loc main_arg1)) :=
  (W5_of_ne m ρ c main_v31 (by decide)).trans (Layer1.W4_norm m ρ c)

theorem W5_arg5 : W5 m ρ c (Proc.devRef .tc main_arg5) = (m ((c : Thread nD τ).loc main_arg5)) :=
  (W5_of_ne m ρ c main_arg5 (by decide)).trans (Layer1.W4_arg5 m ρ c)

theorem W5_arg6 : W5 m ρ c (Proc.devRef .tc main_arg6) = (m ((c : Thread nD τ).loc main_arg6)) :=
  (W5_of_ne m ρ c main_arg6 (by decide)).trans (Layer1.W4_arg6 m ρ c)

theorem W5_arg7 : W5 m ρ c (Proc.devRef .tc main_arg7) = (m ((c : Thread nD τ).loc main_arg7)) :=
  (W5_of_ne m ρ c main_arg7 (by decide)).trans (Layer1.W4_arg7 m ρ c)

/-! ## After the stretch of host operations between the third and fourth regions -/

set_option maxHeartbeats 4000000 in
/-- The aggregated messages of the second layer. -/
theorem agg : W6 m ρ c (Proc.devRef .tc main_v72) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v72) = _
  after_results_simp
  rw [h2 m ρ c, W5_src m ρ c, W5_dst m ρ c, W5_norm m ρ c, ← norm_again]
  rfl

set_option maxHeartbeats 4000000 in
/-- The squared inverse root degree laid out as a column. -/
theorem dcol : W6 m ρ c (Proc.devRef .tc main_v74) = shapeCast S100000x1 (val_main_v50 (F := Ideal) (m ((c : Thread nD τ).loc main_arg1))) shapeCasts_S100000_S100000x1 := by
  show StableHlo.after hostOps3 (W5 m ρ c) (Proc.devRef .tc main_v74) = _
  after_results_simp
  rw [W5_dsq m ρ c]
  rfl

set_option maxHeartbeats 4000000 in
/-- The second bias laid out as a row. -/
theorem brow : W6 m ρ c (Proc.devRef .tc main_v73) = shapeCast S1x64 (m ((c : Thread nD τ).loc main_arg5)) shapeCasts_S64_S1x64 := by
  show StableHlo.after hostOps3 (W5 m ρ c) (Proc.devRef .tc main_v73) = _
  after_results_simp
  rw [W5_arg5 m ρ c]
  rfl

set_option maxHeartbeats 4000000 in
theorem W6_h2 : W6 m ρ c (Proc.devRef .tc main_v54) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v54) = _
  after_results_simp
  exact h2 m ρ c

set_option maxHeartbeats 4000000 in
theorem W6_arg6 : W6 m ρ c (Proc.devRef .tc main_arg6) = (m ((c : Thread nD τ).loc main_arg6)) := by
  show StableHlo.after hostOps3 (W5 m ρ c) (Proc.devRef .tc main_arg6) = _
  after_results_simp
  exact W5_arg6 m ρ c

set_option maxHeartbeats 4000000 in
theorem W6_arg7 : W6 m ρ c (Proc.devRef .tc main_arg7) = (m ((c : Thread nD τ).loc main_arg7)) := by
  show StableHlo.after hostOps3 (W5 m ρ c) (Proc.devRef .tc main_arg7) = _
  after_results_simp
  exact W5_arg7 m ρ c

/-! ## After the fourth region -/

/-- Entry by entry, the region's combination read through a column and a row is the reference's chain of
    broadcasts, products and sums. -/
theorem combined_eq (X : S100000x128.Idx → EReal) (E : (⟨S2x1600000, .i32⟩ : BufTy).Contents (Elt Ideal)) (W : S128x64.Idx → EReal) (B : S64.Idx → EReal)
    (W' : S64x64.Idx → EReal) (B' : S64.Idx → EReal) :
    Combine2.combined (val_main_v104 (F := Ideal) X E W B W') (val_main_v59 (F := Ideal) X E W B W')
        (shapeCast S100000x1 (val_main_v50 (F := Ideal) E) shapeCasts_S100000_S100000x1) (shapeCast S1x64 B' shapeCasts_S64_S1x64)
      = val_main_v112 (F := Ideal) X E W B W' B' := by
  funext i
  obtain ⟨p, q, rfl⟩ : ∃ (p : Fin 100000) (q : Fin 64), i = ix2 p q := ⟨i 0, i 1, eq_ix2 i⟩
  rw [val_main_v112_apply, val_main_v109_apply, val_main_v108_apply, val_main_v107_apply, val_main_v106_apply,
    val_main_v111_apply, val_main_v110_apply, dsq_again]
  have e1 : Cert.ReferenceIdeal.Read.idx_main_v106 (Cert.ReferenceIdeal.Read.idx_main_v107 (ix2 p q)) = ix1 p :=
    funext fun a => Fin.ext (by match a with | ⟨0, _⟩ => rfl)
  have e2 : Cert.ReferenceIdeal.Read.idx_main_v110 (Cert.ReferenceIdeal.Read.idx_main_v111 (ix2 p q)) = ix1 q :=
    funext fun a => Fin.ext (by match a with | ⟨0, _⟩ => rfl)
  rw [e1, e2]
  unfold Combine2.combined
  rw [Cert.LibColumn.shapeCast_a_a1_apply, shapeCast_a_1a_apply]
  rfl

/-- The fourth region's result: the second layer's output. -/
theorem z : W7 m ρ c (Proc.devRef .tc main_v75) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  rw [Combine2.final (V6 m ρ) c]
  show Combine2.combined (W6 m ρ c (Proc.devRef .tc main_v72)) (W6 m ρ c (Proc.devRef .tc main_v54))
    (W6 m ρ c (Proc.devRef .tc main_v74)) (W6 m ρ c (Proc.devRef .tc main_v73)) = _
  rw [agg m ρ c, W6_h2 m ρ c, dcol m ρ c, brow m ρ c]
  exact combined_eq _ _ _ _ _ _

theorem W7_arg6 : W7 m ρ c (Proc.devRef .tc main_arg6) = (m ((c : Thread nD τ).loc main_arg6)) :=
  (W7_of_ne m ρ c main_arg6 (by decide)).trans (W6_arg6 m ρ c)

theorem W7_arg7 : W7 m ρ c (Proc.devRef .tc main_arg7) = (m ((c : Thread nD τ).loc main_arg7)) :=
  (W7_of_ne m ρ c main_arg7 (by decide)).trans (W6_arg7 m ρ c)

end Cert.KernelIdeal.Layer2

end
-- ==== Proof.Decode.lean ====
/-
  The decoder, tile by tile. The region cuts the 100000 rows of the second layer's output into 20 tiles of 5000 rows,
  multiplies each by the whole 64 × 128 weight array into a zero accumulator and adds the bias (kept as a row
  `[1, 128]`); tile `t` of the result is written back at point `t`. On the extended reals a tile's entry `(p, j)` is
  `∑ k < 64, z (5000 t + p, k) · w (k, j) + b (0, j)` — the entry `(5000 t + p, j)` of the same expression of the whole
  arrays — and the tiles fill the rows.
-/
import proofs.«124263_j893353198359_1_alg».proof.Proof.Gen.KernelIdeal.Frame
import proofs.«124263_j893353198359_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Decode

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The rows-by-columns product of the whole arrays plus the bias row: entry `(r, j)` is `∑ k < 64, x (r, k) · w (k, j) + b (0, j)`. -/
def product (x : S100000x64.Idx → EReal) (w : S64x128.Idx → EReal) (b : S1x128.Idx → EReal) : S100000x128.Idx → EReal :=
  fun i => (∑ k : Fin 64, x (ix2 (i 0) k) * w (ix2 k (i 1))) + b (ix2 (0 : Fin 1) (i 1))

/-- An array of the given shape, read as extended reals. -/
abbrev rd (S : Shape) (f : S.Idx → EReal) : S.Idx → EReal := f

theorem zeros : (![0, 0] : Fin 2 → Nat) = fun _ => 0 := funext fun a => by fin_cases a <;> rfl

/-- One tile of 5000 rows: the narrowing to the matrix unit's format is the identity on the extended reals, and the
    matrix product into a zero accumulator is the plain sum over the 64 shared coordinates; the bias row reaches every entry of its column. -/
theorem tile_apply (x0 : Vec Ideal S5000x64 .f32) (x1 : Vec Ideal S64x128 .f32) (x2 : Vec Ideal S1x128 .f32) (p : Fin 5000) (q : Fin 128) :
    k4_pay1 (F := Ideal) x0 x1 x2 (ix2 p q) = (∑ k : Fin 64, x0 (ix2 p k) * x1 (ix2 k q)) + x2 (ix2 (0 : Fin 1) q) := by
  unfold k4_pay1
  simp only [shapeCast_self]
  show FloatOps.matmul (F := Ideal) dot_S5000x64_S64x128_S5000x128_1_0_0_1_n_n none _ _ (constant S5000x128 .f32 0x00000000#32) (ix2 p q) + broadcastTo S5000x128 x2 broadcasts_S1x128_S5000x128 (ix2 p q) = _
  rw [broadcastTo_1b_ab_apply]
  exact congrArg (· + x2 (ix2 (0 : Fin 1) q)) (Cert.LibPlainDot.matmul_zero_apply dot_S5000x64_S64x128_S5000x128_1_0_0_1_n_n ⟨rfl, rfl, rfl, rfl, rfl, rfl⟩ none _ _ p q)

/-- Over the 20 grid points: the rows' tile and the result's tile move together, the other blocks stay put,
    and no tile has a column offset. -/
theorem idx_facts : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_3.index t (1 : Fin 2) = 0 ∧ win4_2.index t (0 : Fin 2) = 0 ∧ win4_2.index t (1 : Fin 2) = 0 :=
  (by decide +kernel : ∀ t : Fin grid4.N, _)

/-- Each of the 20 row tiles is some point's. -/
theorem idx_onto : ∀ q0 : Fin 20, ∃ t : Fin cfg4.N, win4_3.index t = ![q0.val, 0] :=
  (by decide +kernel : ∀ q0 : Fin 20, ∃ t : Fin grid4.N, win4_3.index t = ![q0.val, 0])

/-- What point `t` writes back is tile `t` of the whole product of the arrays the region finds. -/
theorem flushed_eq (c : Dev nD) (t : Fin cfg4.N) :
    (dat4 V c).flushed 3 t = ((cfg4.win 3).blk t).view.read (Elt Ideal) (product (V c main_v75) (V c main_arg6) (V c main_v76)) := by
  show (cfg4.win 3).cut (grid4.coords t) ((dat4 V c).after 3 t) = _
  rw [after4_3]
  unfold out4_3
  rw [View.canon_unit_zero zeros]
  simp only [View.ld_unit_zero (S := S5000x64) zeros, View.ld_unit_zero (S := S64x128) zeros, View.ld_unit_zero (S := S1x128) zeros]
  obtain ⟨e0, e1, e2, e3, e4, e5, e6⟩ := idx_facts t
  funext j
  obtain ⟨p, q, rfl⟩ : ∃ (p : Fin 5000) (q : Fin 128), j = ix2 p q := ⟨j 0, j 1, eq_ix2 j⟩
  refine (tile_apply (iblk4 V c 0 t) (iblk4 V c 1 t) (iblk4 V c 2 t) p q).trans ?_
  show _ = (∑ k : Fin 64, rd S100000x64 (V c main_v75) (ix2 ((((cfg4.win 3).blk t).view.emb (ix2 p q)) 0) k) * rd S64x128 (V c main_arg6) (ix2 k ((((cfg4.win 3).blk t).view.emb (ix2 p q)) 1))) + rd S1x128 (V c main_v76) (ix2 (0 : Fin 1) ((((cfg4.win 3).blk t).view.emb (ix2 p q)) 1))
  have h2 : ((cfg4.win 2).blk t).view.emb (ix2 (0 : Fin 1) q) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 128 + 1 * q.val = win4_3.index t (1 : Fin 2) * 128 + 1 * q.val; omega
  refine congrArg₂ (· + ·) ?_ (congrArg (rd S1x128 (V c main_v76)) h2)
  refine Finset.sum_congr rfl fun k _ => ?_
  show rd S100000x64 (V c main_v75) (((cfg4.win 0).blk t).view.emb (ix2 p k)) * rd S64x128 (V c main_arg6) (((cfg4.win 1).blk t).view.emb (ix2 k q)) = _
  have h0 : ((cfg4.win 0).blk t).view.emb (ix2 p k) = ix2 ((((cfg4.win 3).blk t).view.emb (ix2 p q)) 0) k := by
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * k.val = k.val; omega
  have h1 : ((cfg4.win 1).blk t).view.emb (ix2 k q) = ix2 k ((((cfg4.win 3).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 128 + 1 * q.val = win4_3.index t (1 : Fin 2) * 128 + 1 * q.val; omega
  rw [h0, h1]
  rfl

/-- An index of the result array is in point `t`'s tile iff each coordinate is in the tile's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v77).slice (win4_3.rect t)).set ↔ _
  rw [View.set_slice_whole, Rect.mem_set_unit]
  exact Iff.rfl

/-- The 20 tiles of 5000 rows fill the 100000 rows: row `r` is in tile `r / 5000`. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- After the region the result array holds the whole product of the arrays the region found. -/
theorem final (c : Dev nD) : (dat4 V c).arrAt 3 cfg4.N = product (V c main_v75) (V c main_arg6) (V c main_v76) :=
  (dat4 V c).arrAt_eq_of_cover 3 _ (fun t _ => flushed_eq V c t) cover

end Cert.KernelIdeal.Decode

end
-- ==== Proof.Output.lean ====
/-
  The decoder and the result. One host operation lays the last bias out as a row; the fifth region multiplies the second
  layer's output by the decoder's weights tile by tile and adds that row. Entry by entry this is the reference's last
  `dot_general` plus its broadcast bias, so the kernel program's result buffer ends holding the reference's result as a
  function of the eight arguments.
-/
import proofs.«124263_j893353198359_1_alg».proof.Proof.Gen.KernelIdeal.Frame
import proofs.«124263_j893353198359_1_alg».proof.Proof.Gen.ReferenceIdeal.Read
import proofs.«124263_j893353198359_1_alg».proof.Proof.Layer2
import proofs.«124263_j893353198359_1_alg».proof.Proof.Decode
import proofs.«124263_j893353198359_1_alg».proof.Proof.LibPlainDot
import Idealize.ShloMosaic.Lib.StableHlo.Run
import Idealize.ShloMosaic.Lib.ValueLayout

set_option maxRecDepth 16384

noncomputable section

namespace Cert.KernelIdeal.Output

open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-! ## After the last host operation -/

set_option maxHeartbeats 4000000 in
/-- The last bias laid out as a row. -/
theorem brow : W8 m ρ c (Proc.devRef .tc main_v76) = shapeCast S1x128 (m ((c : Thread nD τ).loc main_arg7)) shapeCasts_S128_S1x128 := by
  show StableHlo.after hostOps4 (W7 m ρ c) (Proc.devRef .tc main_v76) = _
  after_results_simp
  rw [Layer2.W7_arg7 m ρ c]
  rfl

set_option maxHeartbeats 4000000 in
theorem W8_z : W8 m ρ c (Proc.devRef .tc main_v75) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W7 m ρ c) (Proc.devRef .tc main_v75) = _
  after_results_simp
  exact Layer2.z m ρ c

set_option maxHeartbeats 4000000 in
theorem W8_arg6 : W8 m ρ c (Proc.devRef .tc main_arg6) = (m ((c : Thread nD τ).loc main_arg6)) := by
  show StableHlo.after hostOps4 (W7 m ρ c) (Proc.devRef .tc main_arg6) = _
  after_results_simp
  exact Layer2.W7_arg6 m ρ c

/-! ## After the fifth region -/

/-- Entry by entry, the product of whole arrays plus the bias read through a row is the reference's `dot_general`
    plus its broadcast bias. -/
theorem decoded_eq (X : S100000x128.Idx → EReal) (E : (⟨S2x1600000, .i32⟩ : BufTy).Contents (Elt Ideal)) (W : S128x64.Idx → EReal) (B : S64.Idx → EReal)
    (W' : S64x64.Idx → EReal) (B' : S64.Idx → EReal) (Wd : S64x128.Idx → EReal) (Bd : S128.Idx → EReal) :
    Decode.product (val_main_v112 (F := Ideal) X E W B W' B') Wd (shapeCast S1x128 Bd shapeCasts_S128_S1x128)
      = val_main_v116 (F := Ideal) X E W B W' B' Wd Bd := by
  funext i
  obtain ⟨p, q, rfl⟩ : ∃ (p : Fin 100000) (q : Fin 128), i = ix2 p q := ⟨i 0, i 1, eq_ix2 i⟩
  rw [val_main_v116_apply, val_main_v115_apply, val_main_v114_apply]
  have e1 : Cert.ReferenceIdeal.Read.idx_main_v114 (Cert.ReferenceIdeal.Read.idx_main_v115 (ix2 p q)) = ix1 q :=
    funext fun a => Fin.ext (by match a with | ⟨0, _⟩ => rfl)
  rw [e1]
  unfold Decode.product val_main_v113
  rw [shapeCast_a_1a_apply]
  exact congrArg (· + Bd (ix1 q)) (Cert.LibPlainDot.dotGeneral_apply Cert.ReferenceIdeal.dot_S100000x64_S64x128_S100000x128_1_0_0_1_n_n ⟨rfl, rfl, rfl, rfl, rfl, rfl⟩ none _
    (val_main_v112 (F := Ideal) X E W B W' B') Wd p q).symm

/-- The kernel program's result buffer at the last boundary is the reference's result, as a function of the eight
    arguments. -/
theorem result : W9 m ρ c (Proc.devRef .tc main_v77) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ?_
  rw [Decode.final (V8 m ρ) c]
  show Decode.product (W8 m ρ c (Proc.devRef .tc main_v75)) (W8 m ρ c (Proc.devRef .tc main_arg6)) (W8 m ρ c (Proc.devRef .tc main_v76)) = _
  rw [W8_z m ρ c, W8_arg6 m ρ c, brow m ρ c]
  exact decoded_eq _ _ _ _ _ _ _ _

end Cert.KernelIdeal.Output

end
-- ==== Proof.lean ====
/-
  A two-layer graph convolution with a linear decoder, tiled, against its plain statement.

  Both programs compute, from node features `x`, an edge list and three weight arrays with their biases,
  `h = max ((A (x·W1) + (x·W1)·d²) + b1, 0)`, `z = (A (h·W2) + (h·W2)·d²) + b2`, and the result `z·Wd + bd`, where `d` is
  every node's inverse root degree (its own loop counted) and `A` gathers rows at the edges' sources, scales each by
  the product of its endpoints' `d`, and adds them up at the edges' targets. The tiled program computes the degrees,
  `d²` and the edge weights once and runs the three products and the two combinations in five regions of 20 row tiles
  each; the plain one computes them per layer and uses whole-array operations.

  On the extended reals the two agree operation for operation: a change of float format is the identity, a tile's
  matrix product into a zero accumulator is the plain sum that the whole `dot_general` is at the same row, the tiles
  fill the rows, a column or a row read through a reshape holds what the reference's broadcasts hold at the same
  index, and the gathers, scatters and the degree computation are the same host operations of the same arrays. No law
  that needs finiteness is used: the sums and products are compared in the same order and grouping.

  The kernel program's run names its result buffer's final contents (`Cert.KernelIdeal.Result.run`); walking its nine
  boundaries back to the launch memory identifies those contents with the reference's last stage
  (`Cert.KernelIdeal.Output.result`); the reference's run is the generated one.
-/
import proofs.«124263_j893353198359_1_alg».proof.Defs
import proofs.«124263_j893353198359_1_alg».proof.Proof.Gen.Kernel
import proofs.«124263_j893353198359_1_alg».proof.Proof.Gen.Kernel.Frame
import proofs.«124263_j893353198359_1_alg».proof.Proof.Gen.KernelIdeal
import proofs.«124263_j893353198359_1_alg».proof.Proof.Gen.KernelIdeal.Frame
import proofs.«124263_j893353198359_1_alg».proof.Proof.Gen.ReferenceIdeal
import proofs.«124263_j893353198359_1_alg».proof.Proof.Gen.Pre_finite_inputs
import proofs.«124263_j893353198359_1_alg».proof.Proof.Gen.ReferenceIdeal.Run
import proofs.«124263_j893353198359_1_alg».proof.Proof.Gen.ReferenceIdeal.Read
import proofs.«124263_j893353198359_1_alg».proof.Proof.KernelRun
import proofs.«124263_j893353198359_1_alg».proof.Proof.Output
import Idealize.ShloMosaic.Adequacy
import Idealize.ShloMosaic.Init

noncomputable section

namespace Cert.Proof

open Idealize.ShloMosaic Idealize.ShloMosaic.TcCoe Idealize.SL.Sem

/-- The word-level tiled program runs and leaves its arguments as launched. -/
theorem frame_kernel : Cert.frame_Kernel := fun m ρ _ => Cert.Kernel.Gen.frame m ρ

/-- The tiled program read on the extended reals runs and leaves its arguments as launched. -/
theorem frame_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the tiled program was read on the extended reals. -/
theorem preserves : Cert.preserves_Kernel_KernelIdeal := trivial

/-- From memories agreeing on the eight arguments both programs end with the same result: the reference's last
    stage as a function of the arguments. -/
theorem algebraic : Cert.algebraic_KernelIdeal_ReferenceIdeal := by
  intro m ρ m' ρ' _ hagree
  refine ⟨fun c => Cert.ReferenceIdeal.Read.val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Output.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v116_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
